-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S10000x512 .f32) (main_arg1 : FVec F S10000x10000 .f32) (main_arg2 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S10000x512 : Shape := ⟨2, ![10000, 512]⟩
abbrev S10000x10000 : Shape := ⟨2, ![10000, 10000]⟩
abbrev S512x512 : Shape := ⟨2, ![512, 512]⟩
abbrev S2000x512 : Shape := ⟨2, ![2000, 512]⟩
abbrev S400x10000 : Shape := ⟨2, ![400, 10000]⟩
abbrev S400x512 : Shape := ⟨2, ![400, 512]⟩

abbrev nBuf : Space → Nat
  | .hbm => 4
  | .vmem => 8
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S400x10000, .f32⟩
  | .local _ .vmem, ⟨4, _⟩ => ⟨S400x10000, .f32⟩
  | .local _ .vmem, ⟨5, _⟩ => ⟨S400x512, .f32⟩
  | .local _ .vmem, ⟨6, _⟩ => ⟨S400x512, .f32⟩
  | .local _ .vmem, ⟨7, _⟩ => ⟨S10000x512, .bf16⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2000_i32 : BitVec 32 := 2000#32
  let v8 : BitVec 32 := Scalar.muli arg0 c2000_i32
  let v9 : Index := Scalar.indexCast v8
  let c0_3 : Index := 0#32
  ![v9.toNat, 0]
def k0_cond2 (i : grid0.Coords) : BitVec 1 :=
  let arg0 : BitVec 32 := BitVec.ofNat 32 (i 0).val
  let c5_i32_0 : BitVec 32 := 5#32
  let v3 : BitVec 1 := Scalar.cmpi .sge arg0 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  shapeCasts_S2000x512_S2000x512 : S2000x512.ShapeCasts S2000x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  inb_S512x512_S512x512_0_0 : ∀ a, (![0, 0] : Fin 2 → Nat) a + S512x512.size a ≤ S512x512.size a
  h_S512x512 : 0 < S512x512.numel
  inb_S400x512_S400x512_0_0 : ∀ a, (![0, 0] : Fin 2 → Nat) a + S400x512.size a ≤ S400x512.size a
  h_S400x512 : 0 < S400x512.numel
  dot_S400x10000_S10000x512_S400x512_1_0_0_1_n_n_wf : DotDims.WF S400x10000 S10000x512 S400x512 [1] [0] [0] [1] [] []
  dot_S400x512_S512x512_S400x512_1_1_0_0_n_n_wf : DotDims.WF S400x512 S512x512 S400x512 [1] [1] [0] [0] [] []
  hrank0 : 0 < grid0.rank
  k0_off1_inb : ∀ i : grid0.Coords, ∀ (k0_h1 : k0_cond1 i = 1#1), ∀ a, (k0_off1 i) a + S2000x512.size a ≤ S10000x512.size a
  k0_off1_packedbf16 : ∀ i : grid0.Coords, ∀ (k0_h1 : k0_cond1 i = 1#1), (Rect.unit (s := S10000x512) (k0_off1 i) S2000x512.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x512.size a ≤ S10000x512.size a
  hwx0_3 : ∀ i : grid0.Coords, EltTy.bits .f32 = 32 ∨ (Rect.block (s := S10000x512) S400x512.size (cc0_transform_3 i) (hinb0_3 i)).WholeWords (EltTy.packing .f32)

variable [Facts₀]

def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_1_0_0_n_n : DotDims S400x512 S512x512 S400x512 where
  lhsContracting := [1]
  rhsContracting := [1]
  lhsNonContracting := [0]
  rhsNonContracting := [0]
  lhsBatch := []
  rhsBatch := []
  wf := dot_S400x512_S512x512_S400x512_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512x512, .f32⟩
  | .hbm, ⟨4, _⟩ => ⟨S10000x512, .f32⟩
  | .hbm, ⟨5, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S512x512_S512x512_1_0 : S512x512.Transposes [1, 0] S512x512
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.BodyRunsW.lean ====
/-
  The kernel body, run once in each of its two regimes, on arbitrary whole staging buffers.

  The body has two guarded halves. At a grid point below 5 only the first runs: it reads the 2000 x 512 block of x it is
  handed, narrows it, and stores the result into rows [o, o + 2000) of the 10000 x 512 scratch buffer, o the offset
  the kernel computes from the point; every other row of the scratch, and the output's staging buffer, are left as
  found. At a grid point from 5 on only the second runs: it reads the 400 x 10000 block of adj, the whole scratch and
  the 512 x 512 weights, and stores their double product into the output's staging buffer; the scratch is left as found.
  Both are stated for any float instance.
-/
import proofs.«107264_g27943057227955_cont_9to1_1166_19_alg».proof.Proof.Gen.Kernel.Frame
import proofs.«107264_g27943057227955_cont_9to1_1166_19_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Zero offsets on two axes. -/
theorem zero2 : (![0, 0] : Fin 2 → ℕ) = fun _ => 0 := by
  funext a; match a with | ⟨0, _⟩ => rfl | ⟨1, _⟩ => rfl

/-- The scratch slice starts at column 0: its offsets are (row offset, 0). -/
theorem off_rows (i : grid0.Coords) : k0_off1 i = ![k0_off1 i 0, 0] := by
  funext a; match a with | ⟨0, _⟩ => rfl | ⟨1, _⟩ => rfl

set_option maxHeartbeats 1000000 in
/-- A point of the first regime: the scratch ends with the narrowed block of x on rows [o, o + 2000) and its old contents
    elsewhere; the three inputs and the output's buffer are handed back as found. -/
theorem run_cast (c : Dev nD) (i : grid0.Coords) (arg1 : Memref sig .tc .vmem S2000x512 .f32) (harg1 : arg1.IsWhole) (arg2 : Memref sig .tc .vmem S512x512 .f32) (harg2 : arg2.IsWhole) (arg3 : Memref sig .tc .vmem S400x10000 .f32) (harg3 : arg3.IsWhole) (arg4 : Memref sig .tc .vmem S400x512 .f32) (harg4 : arg4.IsWhole) (arg5 : Memref sig .tc .vmem S10000x512 .bf16) (harg5 : arg5.IsWhole) (hc0 : k0_cond1 i = 1#1) (hc1 : ¬ k0_cond2 i = 1#1)
    (x0 : Vec F S2000x512 .f32) (x1 : Vec F S512x512 .f32) (x2 : Vec F S400x10000 .f32) (x3 : Vec F S400x512 .f32) (ds : Vec F S10000x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ d' : Vec F S10000x512 .bf16, ⌜(∀ (y : S10000x512.Idx) (x : S2000x512.Idx), (y 0).val = k0_off1 i 0 + (x 0).val → (y 1).val = (x 1).val → d' y = k0_pay1 x0 x)
                      ∧ (∀ y : S10000x512.Idx, ((y 0).val < k0_off1 i 0 ∨ k0_off1 i 0 + 2000 ≤ (y 0).val) → d' y = ds y)⌝
                    ∗ owns (c : Thread nD τ) arg5 fullShare d')) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap
    · iexists _; isplitr; swap; · iexact HS0
      ipureintro; rfl
    ipureintro
    refine ⟨fun y x h0 h1 => ?_, fun y h => ?_⟩
    · refine (View.read_writes_cons_unit_of_mem arg5.view (harg5.unread ds) (k0_off1_inb i hc0) _ [] y x (off_rows i)
        (Fin.forall_fin_two.mpr ⟨h0, h1.trans (Nat.zero_add _).symm⟩)).trans ?_
      simp only [View.readAt_eq_ld, harg1.read_unread, View.ld_unit_zero (S := S2000x512) zero2]
    · exact (View.read_writes_cons_unit_of_not_mem arg5.view (harg5.unread ds) (k0_off1_inb i hc0) _ [] y (off_rows i)
        (0 : Fin 2) h).trans (congrFun (harg5.read_unread ds) y)

set_option maxHeartbeats 1000000 in
/-- A point of the second regime: the output's buffer ends at the double product of the adj block, the scratch and the
    weights; the three inputs and the scratch are handed back as found. -/
theorem run_agg (c : Dev nD) (i : grid0.Coords) (arg1 : Memref sig .tc .vmem S2000x512 .f32) (harg1 : arg1.IsWhole) (arg2 : Memref sig .tc .vmem S512x512 .f32) (harg2 : arg2.IsWhole) (arg3 : Memref sig .tc .vmem S400x10000 .f32) (harg3 : arg3.IsWhole) (arg4 : Memref sig .tc .vmem S400x512 .f32) (harg4 : arg4.IsWhole) (arg5 : Memref sig .tc .vmem S10000x512 .bf16) (harg5 : arg5.IsWhole) (hc0 : ¬ k0_cond1 i = 1#1) (hc1 : k0_cond2 i = 1#1)
    (x0 : Vec F S2000x512 .f32) (x1 : Vec F S512x512 .f32) (x2 : Vec F S400x10000 .f32) (ds : Vec F S10000x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare ds
            ∗ (iprop(owns (c : Thread nD τ) arg1 fullShare x0 ∗ owns (c : Thread nD τ) arg2 fullShare x1 ∗ owns (c : Thread nD τ) arg3 fullShare x2 ∗ owns (c : Thread nD τ) arg4 fullShare (k0_pay2 x2 ds x1) ∗ owns (c : Thread nD τ) arg5 fullShare ds) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      funext y
      refine (View.read_writes_cons_unit_of_mem arg4.view f3 inb_S400x512_S400x512_0_0 _ [] y y zero2
        (fun a => (Nat.zero_add _).symm)).trans ?_
      simp only [View.readAt_eq_ld, harg2.read_unread, harg3.read_unread, harg5.read_unread,
        View.ld_unit_zero (S := S400x10000) zero2, View.ld_unit_zero (S := S10000x512) zero2,
        View.ld_unit_zero (S := S512x512) zero2]
    iexists _; isplitr; · ipureintro; exact harg5.read_unread _
    iexact HS0

end Cert.Kernel.Body

end
-- ==== Proof.BodyDataW.lean ====
/-
  The kernel's grid loop: what the scratch buffer and the output's staging buffer hold point by point, and the run.

  The grid has 30 points. Points 0..4 copy x, narrowed, into the scratch buffer, 2000 rows at a time: after point t the
  rows below 2000 (t + 1) of the scratch are the narrowed rows of x (the invariant `FilledTo`), so from point 5 on the
  whole scratch is x narrowed. Points 5..29 each store into the output's staging buffer the double product of the adj
  block at the point, the scratch (now all of x narrowed) and the weights; before point 5 the output's buffer is
  untouched and nothing is written back. The loop invariant carries the scratch at SOME contents filled that far, so
  that nothing is said about rows not yet written. Stated for any float instance.
-/
import proofs.«107264_g27943057227955_cont_9to1_1166_19_alg».proof.Proof.BodyRunsW
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two regimes over the grid, decided point by point -/

/-- The first half of the body runs exactly at the points below 5. -/
theorem cast_iff : ∀ t : Fin cfg0.N, k0_cond1 (grid0.coords t) = 1#1 ↔ t.val < 5 :=
  (by decide +kernel : ∀ t : Fin grid0.N, k0_cond1 (grid0.coords t) = 1#1 ↔ t.val < 5)
/-- The second half runs exactly at the points from 5 on. -/
theorem agg_iff : ∀ t : Fin cfg0.N, k0_cond2 (grid0.coords t) = 1#1 ↔ 5 ≤ t.val :=
  (by decide +kernel : ∀ t : Fin grid0.N, k0_cond2 (grid0.coords t) = 1#1 ↔ 5 ≤ t.val)
/-- The three input windows are in use at every point. -/
theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
/-- Below point 5 the output window is idle and is not written back. -/
theorem out_idle : ∀ t : Fin cfg0.N, t.val < 5 → cfg0.idle 3 (grid0.coords t) = true :=
  (by decide +kernel : ∀ t : Fin grid0.N, t.val < 5 → cfg0.idle 3 (grid0.coords t) = true)
theorem out_unflushed : ∀ t : Fin cfg0.N, t.val < 5 → (cfg0.win 3).flush t = false :=
  (by decide +kernel : ∀ t : Fin grid0.N, t.val < 5 → win0_3.flush t = false)
/-- From point 5 on it is in use. -/
theorem out_live : ∀ t : Fin cfg0.N, 5 ≤ t.val → cfg0.idle 3 (grid0.coords t) = false :=
  (by decide +kernel : ∀ t : Fin grid0.N, 5 ≤ t.val → cfg0.idle 3 (grid0.coords t) = false)
/-- Below point 5 the block of x the body is handed is block t: rows [2000 t, 2000 t + 2000), all columns. -/
theorem x_block : ∀ t : Fin cfg0.N, t.val < 5 → win0_0.index t (0 : Fin 2) = t.val ∧ win0_0.index t (1 : Fin 2) = 0 :=
  (by decide +kernel : ∀ t : Fin grid0.N, t.val < 5 → win0_0.index t (0 : Fin 2) = t.val ∧ win0_0.index t (1 : Fin 2) = 0)
/-- The scratch slice the first half stores into starts at row 2000 t. -/
theorem off_at : ∀ t : Fin cfg0.N, k0_off1 (grid0.coords t) 0 = 2000 * t.val :=
  (by decide +kernel : ∀ t : Fin grid0.N, k0_off1 (grid0.coords t) 0 = 2000 * t.val)

/-! ## The buffers the body is called on -/

abbrev stg0 (t : Fin cfg0.N) : Memref sig .tc .vmem S2000x512 .f32 := win0_0.stage (cfg0.slots t 0)
abbrev stg1 (t : Fin cfg0.N) : Memref sig .tc .vmem S512x512 .f32 := win0_1.stage (cfg0.slots t 1)
abbrev stg2 (t : Fin cfg0.N) : Memref sig .tc .vmem S400x10000 .f32 := win0_2.stage (cfg0.slots t 2)
abbrev stg3 (t : Fin cfg0.N) : Memref sig .tc .vmem S400x512 .f32 := win0_3.stage (cfg0.slots t 3)
/-- The scratch buffer, whole. -/
abbrev scr : Memref sig .tc .vmem S10000x512 .bf16 := Memref.whole cc0_scratch0

/-- The region's own invariant: the scratch buffer at some contents, and the generator register. -/
theorem classInv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The scratch being filled -/

/-- x as the region finds it, narrowed entry by entry. -/
def xcast (c : Dev nD) : Vec F S10000x512 .bf16 :=
  have X : Vec F S10000x512 .f32 := V m c main_arg0
  truncf .bf16 X bitsLt_bf16_f32

/-- The rows below 2000 n of `d` are the narrowed rows of x. -/
def FilledTo (c : Dev nD) (n : ℕ) (d : Vec F S10000x512 .bf16) : Prop :=
  ∀ y : S10000x512.Idx, (y 0).val < 2000 * n → d y = xcast m c y

/-- The narrowed block of x handed to the body at a point t below 5, at (r, j), is narrowed x at (2000 t + r, j). -/
theorem cast_block (c : Dev nD) (t : Fin cfg0.N) (ht : t.val < 5) (y : S10000x512.Idx) (x : S2000x512.Idx)
    (h0 : (y 0).val = 2000 * t.val + (x 0).val) (h1 : (y 1).val = (x 1).val) :
    k0_pay1 (iblk m c 0 t) x = xcast m c y := by
  unfold k0_pay1 xcast
  rw [shapeCast_self]
  show FloatOps.truncf .bf16 bitsLt_bf16_f32 (V m c main_arg0 (((cfg0.win 0).blk t).view.emb x))
    = FloatOps.truncf .bf16 bitsLt_bf16_f32 (V m c main_arg0 y)
  refine congrArg (FloatOps.truncf .bf16 bitsLt_bf16_f32) (congrArg (V m c main_arg0) ?_)
  obtain ⟨e0, e1⟩ := x_block t ht
  funext a; apply Fin.ext
  match a with
  | ⟨0, _⟩ => show win0_0.index t (0 : Fin 2) * 2000 + 1 * (x 0).val = (y 0).val; omega
  | ⟨1, _⟩ => show win0_0.index t (1 : Fin 2) * 512 + 1 * (x 1).val = (y 1).val; omega

/-- One more slice: if `ds` is filled to 2000 t and `d'` is `ds` with the narrowed block of point t stored on rows
    [2000 t, 2000 t + 2000), then `d'` is filled to 2000 (t + 1). -/
theorem filled_step (c : Dev nD) (t : Fin cfg0.N) (ht : t.val < 5) (ds d' : Vec F S10000x512 .bf16)
    (hds : FilledTo m c t.val ds)
    (hin : ∀ (y : S10000x512.Idx) (x : S2000x512.Idx), (y 0).val = k0_off1 (grid0.coords t) 0 + (x 0).val →
      (y 1).val = (x 1).val → d' y = k0_pay1 (iblk m c 0 t) x)
    (hout : ∀ y : S10000x512.Idx, ((y 0).val < k0_off1 (grid0.coords t) 0 ∨ k0_off1 (grid0.coords t) 0 + 2000 ≤ (y 0).val) →
      d' y = ds y) :
    FilledTo m c (t.val + 1) d' := by
  intro y hy
  rw [off_at t] at hin hout
  by_cases hlow : (y 0).val < 2000 * t.val
  · rw [hout y (Or.inl hlow)]; exact hds y hlow
  · have hx0 : (y 0).val - 2000 * t.val < 2000 := by omega
    have hx1 : (y 1).val < 512 := (y 1).isLt
    have e0 : (y 0).val = 2000 * t.val + (y 0).val - 2000 * t.val := by omega
    rw [hin y (ValueIdx.ix2 (⟨(y 0).val - 2000 * t.val, hx0⟩ : Fin 2000) (⟨(y 1).val, hx1⟩ : Fin 512))
      (by show (y 0).val = 2000 * t.val + ((y 0).val - 2000 * t.val); omega) rfl]
    exact cast_block m c t ht y _ (by show (y 0).val = 2000 * t.val + ((y 0).val - 2000 * t.val); omega) rfl

/-- Filled to 2000 n with n at least 5 is all 10000 rows: the buffer is x narrowed. -/
theorem filled_all (c : Dev nD) (n : ℕ) (hn : 5 ≤ n) (d : Vec F S10000x512 .bf16) (h : FilledTo m c n d) : d = xcast m c :=
  funext fun y => h y (by have hy : (y 0).val < 10000 := (y 0).isLt; omega)

/-- The loop invariant before point n: the scratch at some contents filled to 2000 n, and the generator register. -/
def Inv (c : Dev nD) (n : ℕ) : sProp 𝕄 :=
  iprop(iprop(∃ d : Vec F S10000x512 .bf16, ⌜FilledTo m c n d⌝ ∗ owns (c : Thread nD τ) scr fullShare d) ∗ (∃ r, prngReg c r))

/-! ## The proof data -/

/-- The arrays as the region finds them; after the body each input's buffer at its block; the output's buffer, at a
    point from 5 on, at the double product of the adj block, x narrowed and the weights (below 5 the window is idle
    and this entry is not consulted); the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 2 t) (xcast m c) (iblk m c 1 t)
  Φ k := Inv m c k.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay2 (iblk m c 2 t) (xcast m c) (iblk m c 1 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. Below 5: the scratch, filled to 2000 t, comes back filled to 2000 (t + 1), the output's
    buffer as found. From 5 on: the scratch is x narrowed and comes back so; the output's buffer comes back at the
    double product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns (c : Thread nD τ) (stg0 t) fullShare ((dats m 0 c).after 0 t) from by
    unfold Dat.leavesExact; rw [in0_live t], after0]
  rw [show (dats m 0 c).leavesExact 1 t = owns (c : Thread nD τ) (stg1 t) fullShare ((dats m 0 c).after 1 t) from by
    unfold Dat.leavesExact; rw [in1_live t], after1]
  rw [show (dats m 0 c).leavesExact 2 t = owns (c : Thread nD τ) (stg2 t) fullShare ((dats m 0 c).after 2 t) from by
    unfold Dat.leavesExact; rw [in2_live t], after2]
  have hN : t.val < 30 := lt_of_lt_of_eq t.isLt (show cfg0.N = 30 from N_0)
  unfold Inv
  by_cases h : t.val < 5
  · rw [Dat.leavesExact_idle (dats m 0 c) 3 t (out_idle t h) (out_unflushed t h)]
    iintro ⟨⟨⟨%ds, %hds, HS⟩, Hg⟩, Ho, ⟨%d0, H0⟩, ⟨%d1, H1⟩, ⟨%d2, H2⟩, ⟨%d3, H3⟩⟩
    iapply ((run_cast c (grid0.coords t) _ _ _ _ _ _ _ _ _ _ ((cast_iff t).mpr h) (fun h' => absurd ((agg_iff t).mp h') (by omega)) (iblk m c 0 t) (iblk m c 1 t) (iblk m c 2 t) ((dats m 0 c).before 3 t d3) ds) Set.univ _)
    isplitl [H0]; · iexact H0
    isplitl [H1]; · iexact H1
    isplitl [H2]; · iexact H2
    isplitl [H3]; · iexact H3
    isplitl [HS]; · iexact HS
    iintro ⟨H0, H1, H2, H3, ⟨%d', %hd', HS⟩⟩
    isplitl [HS Hg]
    · isplitl [HS]
      · iexists d'; isplitr
        · ipureintro; exact filled_step m c t h ds d' hds hd'.1 hd'.2
        iexact HS
      iexact Hg
    isplitl [Ho]; · iexact Ho
    isplitl [H0]; · iexact H0
    isplitl [H1]; · iexact H1
    isplitl [H2]; · iexact H2
    iexists d3; iexact H3
  · have h5 : 5 ≤ t.val := by omega
    rw [show (dats m 0 c).leavesExact 3 t = owns (c : Thread nD τ) (stg3 t) fullShare ((dats m 0 c).after 3 t) from by
      unfold Dat.leavesExact; rw [out_live t h5], after3]
    iintro ⟨⟨⟨%ds, %hds, HS⟩, Hg⟩, Ho, ⟨%d0, H0⟩, ⟨%d1, H1⟩, ⟨%d2, H2⟩, ⟨%d3, H3⟩⟩
    obtain rfl := filled_all m c t.val h5 ds hds
    iapply ((run_agg c (grid0.coords t) _ _ _ _ _ _ _ _ _ _ (fun h' => absurd ((cast_iff t).mp h') (by omega)) ((agg_iff t).mpr h5) (iblk m c 0 t) (iblk m c 1 t) (iblk m c 2 t) (xcast m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists (xcast m c); isplitr
        · ipureintro; exact fun y _ => rfl
        iexact HS
      iexact Hg
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0: nothing is filled yet. -/
theorem inv_in (c : Dev nD) : Pipeline.ΦA spec0 c ⊢ (dats m 0 c).Φ 0 := by
  rw [show (dats m 0 c).Φ 0 = Inv m c 0 from rfl, classInv_eq]; unfold Inv
  iintro ⟨⟨%d, HS⟩, Hg⟩
  isplitl [HS]
  · iexists d; isplitr
    · ipureintro; exact fun y hy => absurd hy (by omega)
    iexact HS
  iexact Hg

/-- After the last point the invariant gives the region's own back: what the scratch holds is forgotten. -/
theorem inv_out (c : Dev nD) : (dats m 0 c).Φ (Fin.last cfg0.N) ⊢ Pipeline.ΦA spec0 c := by
  rw [show (dats m 0 c).Φ (Fin.last cfg0.N) = Inv m c (Fin.last cfg0.N).val from rfl, classInv_eq]; unfold Inv
  iintro ⟨⟨%d, %hd, HS⟩, Hg⟩
  isplitl [HS]
  · iexists d; iexact HS
  iexact Hg

/-! ## The run -/

set_option backward.isDefEq.respectTransparency.types false in
/-- Every weakly fair execution of @main terminates, nothing faulting, every array of the region at what the proof data
    computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyRuns.lean ====
/-
  The kernel body, run once in each of its two regimes, on arbitrary whole staging buffers.

  The body has two guarded halves. At a grid point below 5 only the first runs: it reads the 2000 x 512 block of x it is
  handed, narrows it, and stores the result into rows [o, o + 2000) of the 10000 x 512 scratch buffer, o the offset
  the kernel computes from the point; every other row of the scratch, and the output's staging buffer, are left as
  found. At a grid point from 5 on only the second runs: it reads the 400 x 10000 block of adj, the whole scratch and
  the 512 x 512 weights, and stores their double product into the output's staging buffer; the scratch is left as found.
  Both are stated for any float instance.
-/
import proofs.«107264_g27943057227955_cont_9to1_1166_19_alg».proof.Proof.Gen.KernelIdeal.Frame
import proofs.«107264_g27943057227955_cont_9to1_1166_19_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Zero offsets on two axes. -/
theorem zero2 : (![0, 0] : Fin 2 → ℕ) = fun _ => 0 := by
  funext a; match a with | ⟨0, _⟩ => rfl | ⟨1, _⟩ => rfl

/-- The scratch slice starts at column 0: its offsets are (row offset, 0). -/
theorem off_rows (i : grid0.Coords) : k0_off1 i = ![k0_off1 i 0, 0] := by
  funext a; match a with | ⟨0, _⟩ => rfl | ⟨1, _⟩ => rfl

set_option maxHeartbeats 1000000 in
/-- A point of the first regime: the scratch ends with the narrowed block of x on rows [o, o + 2000) and its old contents
    elsewhere; the three inputs and the output's buffer are handed back as found. -/
theorem run_cast (c : Dev nD) (i : grid0.Coords) (arg1 : Memref sig .tc .vmem S2000x512 .f32) (harg1 : arg1.IsWhole) (arg2 : Memref sig .tc .vmem S512x512 .f32) (harg2 : arg2.IsWhole) (arg3 : Memref sig .tc .vmem S400x10000 .f32) (harg3 : arg3.IsWhole) (arg4 : Memref sig .tc .vmem S400x512 .f32) (harg4 : arg4.IsWhole) (arg5 : Memref sig .tc .vmem S10000x512 .bf16) (harg5 : arg5.IsWhole) (hc0 : k0_cond1 i = 1#1) (hc1 : ¬ k0_cond2 i = 1#1)
    (x0 : Vec F S2000x512 .f32) (x1 : Vec F S512x512 .f32) (x2 : Vec F S400x10000 .f32) (x3 : Vec F S400x512 .f32) (ds : Vec F S10000x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ d' : Vec F S10000x512 .bf16, ⌜(∀ (y : S10000x512.Idx) (x : S2000x512.Idx), (y 0).val = k0_off1 i 0 + (x 0).val → (y 1).val = (x 1).val → d' y = k0_pay1 x0 x)
                      ∧ (∀ y : S10000x512.Idx, ((y 0).val < k0_off1 i 0 ∨ k0_off1 i 0 + 2000 ≤ (y 0).val) → d' y = ds y)⌝
                    ∗ owns (c : Thread nD τ) arg5 fullShare d')) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap
    · iexists _; isplitr; swap; · iexact HS0
      ipureintro; rfl
    ipureintro
    refine ⟨fun y x h0 h1 => ?_, fun y h => ?_⟩
    · refine (View.read_writes_cons_unit_of_mem arg5.view (harg5.unread ds) (k0_off1_inb i hc0) _ [] y x (off_rows i)
        (Fin.forall_fin_two.mpr ⟨h0, h1.trans (Nat.zero_add _).symm⟩)).trans ?_
      simp only [View.readAt_eq_ld, harg1.read_unread, View.ld_unit_zero (S := S2000x512) zero2]
    · exact (View.read_writes_cons_unit_of_not_mem arg5.view (harg5.unread ds) (k0_off1_inb i hc0) _ [] y (off_rows i)
        (0 : Fin 2) h).trans (congrFun (harg5.read_unread ds) y)

set_option maxHeartbeats 1000000 in
/-- A point of the second regime: the output's buffer ends at the double product of the adj block, the scratch and the
    weights; the three inputs and the scratch are handed back as found. -/
theorem run_agg (c : Dev nD) (i : grid0.Coords) (arg1 : Memref sig .tc .vmem S2000x512 .f32) (harg1 : arg1.IsWhole) (arg2 : Memref sig .tc .vmem S512x512 .f32) (harg2 : arg2.IsWhole) (arg3 : Memref sig .tc .vmem S400x10000 .f32) (harg3 : arg3.IsWhole) (arg4 : Memref sig .tc .vmem S400x512 .f32) (harg4 : arg4.IsWhole) (arg5 : Memref sig .tc .vmem S10000x512 .bf16) (harg5 : arg5.IsWhole) (hc0 : ¬ k0_cond1 i = 1#1) (hc1 : k0_cond2 i = 1#1)
    (x0 : Vec F S2000x512 .f32) (x1 : Vec F S512x512 .f32) (x2 : Vec F S400x10000 .f32) (ds : Vec F S10000x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare ds
            ∗ (iprop(owns (c : Thread nD τ) arg1 fullShare x0 ∗ owns (c : Thread nD τ) arg2 fullShare x1 ∗ owns (c : Thread nD τ) arg3 fullShare x2 ∗ owns (c : Thread nD τ) arg4 fullShare (k0_pay2 x2 ds x1) ∗ owns (c : Thread nD τ) arg5 fullShare ds) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      funext y
      refine (View.read_writes_cons_unit_of_mem arg4.view f3 inb_S400x512_S400x512_0_0 _ [] y y zero2
        (fun a => (Nat.zero_add _).symm)).trans ?_
      simp only [View.readAt_eq_ld, harg2.read_unread, harg3.read_unread, harg5.read_unread,
        View.ld_unit_zero (S := S400x10000) zero2, View.ld_unit_zero (S := S10000x512) zero2,
        View.ld_unit_zero (S := S512x512) zero2]
    iexists _; isplitr; · ipureintro; exact harg5.read_unread _
    iexact HS0

end Cert.KernelIdeal.Body

end
-- ==== Proof.BodyData.lean ====
/-
  The kernel's grid loop: what the scratch buffer and the output's staging buffer hold point by point, and the run.

  The grid has 30 points. Points 0..4 copy x, narrowed, into the scratch buffer, 2000 rows at a time: after point t the
  rows below 2000 (t + 1) of the scratch are the narrowed rows of x (the invariant `FilledTo`), so from point 5 on the
  whole scratch is x narrowed. Points 5..29 each store into the output's staging buffer the double product of the adj
  block at the point, the scratch (now all of x narrowed) and the weights; before point 5 the output's buffer is
  untouched and nothing is written back. The loop invariant carries the scratch at SOME contents filled that far, so
  that nothing is said about rows not yet written. Stated for any float instance.
-/
import proofs.«107264_g27943057227955_cont_9to1_1166_19_alg».proof.Proof.BodyRuns
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two regimes over the grid, decided point by point -/

/-- The first half of the body runs exactly at the points below 5. -/
theorem cast_iff : ∀ t : Fin cfg0.N, k0_cond1 (grid0.coords t) = 1#1 ↔ t.val < 5 :=
  (by decide +kernel : ∀ t : Fin grid0.N, k0_cond1 (grid0.coords t) = 1#1 ↔ t.val < 5)
/-- The second half runs exactly at the points from 5 on. -/
theorem agg_iff : ∀ t : Fin cfg0.N, k0_cond2 (grid0.coords t) = 1#1 ↔ 5 ≤ t.val :=
  (by decide +kernel : ∀ t : Fin grid0.N, k0_cond2 (grid0.coords t) = 1#1 ↔ 5 ≤ t.val)
/-- The three input windows are in use at every point. -/
theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
/-- Below point 5 the output window is idle and is not written back. -/
theorem out_idle : ∀ t : Fin cfg0.N, t.val < 5 → cfg0.idle 3 (grid0.coords t) = true :=
  (by decide +kernel : ∀ t : Fin grid0.N, t.val < 5 → cfg0.idle 3 (grid0.coords t) = true)
theorem out_unflushed : ∀ t : Fin cfg0.N, t.val < 5 → (cfg0.win 3).flush t = false :=
  (by decide +kernel : ∀ t : Fin grid0.N, t.val < 5 → win0_3.flush t = false)
/-- From point 5 on it is in use. -/
theorem out_live : ∀ t : Fin cfg0.N, 5 ≤ t.val → cfg0.idle 3 (grid0.coords t) = false :=
  (by decide +kernel : ∀ t : Fin grid0.N, 5 ≤ t.val → cfg0.idle 3 (grid0.coords t) = false)
/-- Below point 5 the block of x the body is handed is block t: rows [2000 t, 2000 t + 2000), all columns. -/
theorem x_block : ∀ t : Fin cfg0.N, t.val < 5 → win0_0.index t (0 : Fin 2) = t.val ∧ win0_0.index t (1 : Fin 2) = 0 :=
  (by decide +kernel : ∀ t : Fin grid0.N, t.val < 5 → win0_0.index t (0 : Fin 2) = t.val ∧ win0_0.index t (1 : Fin 2) = 0)
/-- The scratch slice the first half stores into starts at row 2000 t. -/
theorem off_at : ∀ t : Fin cfg0.N, k0_off1 (grid0.coords t) 0 = 2000 * t.val :=
  (by decide +kernel : ∀ t : Fin grid0.N, k0_off1 (grid0.coords t) 0 = 2000 * t.val)

/-! ## The buffers the body is called on -/

abbrev stg0 (t : Fin cfg0.N) : Memref sig .tc .vmem S2000x512 .f32 := win0_0.stage (cfg0.slots t 0)
abbrev stg1 (t : Fin cfg0.N) : Memref sig .tc .vmem S512x512 .f32 := win0_1.stage (cfg0.slots t 1)
abbrev stg2 (t : Fin cfg0.N) : Memref sig .tc .vmem S400x10000 .f32 := win0_2.stage (cfg0.slots t 2)
abbrev stg3 (t : Fin cfg0.N) : Memref sig .tc .vmem S400x512 .f32 := win0_3.stage (cfg0.slots t 3)
/-- The scratch buffer, whole. -/
abbrev scr : Memref sig .tc .vmem S10000x512 .bf16 := Memref.whole cc0_scratch0

/-- The region's own invariant: the scratch buffer at some contents, and the generator register. -/
theorem classInv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The scratch being filled -/

/-- x as the region finds it, narrowed entry by entry. -/
def xcast (c : Dev nD) : Vec F S10000x512 .bf16 :=
  have X : Vec F S10000x512 .f32 := V m c main_arg0
  truncf .bf16 X bitsLt_bf16_f32

/-- The rows below 2000 n of `d` are the narrowed rows of x. -/
def FilledTo (c : Dev nD) (n : ℕ) (d : Vec F S10000x512 .bf16) : Prop :=
  ∀ y : S10000x512.Idx, (y 0).val < 2000 * n → d y = xcast m c y

/-- The narrowed block of x handed to the body at a point t below 5, at (r, j), is narrowed x at (2000 t + r, j). -/
theorem cast_block (c : Dev nD) (t : Fin cfg0.N) (ht : t.val < 5) (y : S10000x512.Idx) (x : S2000x512.Idx)
    (h0 : (y 0).val = 2000 * t.val + (x 0).val) (h1 : (y 1).val = (x 1).val) :
    k0_pay1 (iblk m c 0 t) x = xcast m c y := by
  unfold k0_pay1 xcast
  rw [shapeCast_self]
  show FloatOps.truncf .bf16 bitsLt_bf16_f32 (V m c main_arg0 (((cfg0.win 0).blk t).view.emb x))
    = FloatOps.truncf .bf16 bitsLt_bf16_f32 (V m c main_arg0 y)
  refine congrArg (FloatOps.truncf .bf16 bitsLt_bf16_f32) (congrArg (V m c main_arg0) ?_)
  obtain ⟨e0, e1⟩ := x_block t ht
  funext a; apply Fin.ext
  match a with
  | ⟨0, _⟩ => show win0_0.index t (0 : Fin 2) * 2000 + 1 * (x 0).val = (y 0).val; omega
  | ⟨1, _⟩ => show win0_0.index t (1 : Fin 2) * 512 + 1 * (x 1).val = (y 1).val; omega

/-- One more slice: if `ds` is filled to 2000 t and `d'` is `ds` with the narrowed block of point t stored on rows
    [2000 t, 2000 t + 2000), then `d'` is filled to 2000 (t + 1). -/
theorem filled_step (c : Dev nD) (t : Fin cfg0.N) (ht : t.val < 5) (ds d' : Vec F S10000x512 .bf16)
    (hds : FilledTo m c t.val ds)
    (hin : ∀ (y : S10000x512.Idx) (x : S2000x512.Idx), (y 0).val = k0_off1 (grid0.coords t) 0 + (x 0).val →
      (y 1).val = (x 1).val → d' y = k0_pay1 (iblk m c 0 t) x)
    (hout : ∀ y : S10000x512.Idx, ((y 0).val < k0_off1 (grid0.coords t) 0 ∨ k0_off1 (grid0.coords t) 0 + 2000 ≤ (y 0).val) →
      d' y = ds y) :
    FilledTo m c (t.val + 1) d' := by
  intro y hy
  rw [off_at t] at hin hout
  by_cases hlow : (y 0).val < 2000 * t.val
  · rw [hout y (Or.inl hlow)]; exact hds y hlow
  · have hx0 : (y 0).val - 2000 * t.val < 2000 := by omega
    have hx1 : (y 1).val < 512 := (y 1).isLt
    have e0 : (y 0).val = 2000 * t.val + (y 0).val - 2000 * t.val := by omega
    rw [hin y (ValueIdx.ix2 (⟨(y 0).val - 2000 * t.val, hx0⟩ : Fin 2000) (⟨(y 1).val, hx1⟩ : Fin 512))
      (by show (y 0).val = 2000 * t.val + ((y 0).val - 2000 * t.val); omega) rfl]
    exact cast_block m c t ht y _ (by show (y 0).val = 2000 * t.val + ((y 0).val - 2000 * t.val); omega) rfl

/-- Filled to 2000 n with n at least 5 is all 10000 rows: the buffer is x narrowed. -/
theorem filled_all (c : Dev nD) (n : ℕ) (hn : 5 ≤ n) (d : Vec F S10000x512 .bf16) (h : FilledTo m c n d) : d = xcast m c :=
  funext fun y => h y (by have hy : (y 0).val < 10000 := (y 0).isLt; omega)

/-- The loop invariant before point n: the scratch at some contents filled to 2000 n, and the generator register. -/
def Inv (c : Dev nD) (n : ℕ) : sProp 𝕄 :=
  iprop(iprop(∃ d : Vec F S10000x512 .bf16, ⌜FilledTo m c n d⌝ ∗ owns (c : Thread nD τ) scr fullShare d) ∗ (∃ r, prngReg c r))

/-! ## The proof data -/

/-- The arrays as the region finds them; after the body each input's buffer at its block; the output's buffer, at a
    point from 5 on, at the double product of the adj block, x narrowed and the weights (below 5 the window is idle
    and this entry is not consulted); the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 2 t) (xcast m c) (iblk m c 1 t)
  Φ k := Inv m c k.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay2 (iblk m c 2 t) (xcast m c) (iblk m c 1 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. Below 5: the scratch, filled to 2000 t, comes back filled to 2000 (t + 1), the output's
    buffer as found. From 5 on: the scratch is x narrowed and comes back so; the output's buffer comes back at the
    double product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns (c : Thread nD τ) (stg0 t) fullShare ((dats m 0 c).after 0 t) from by
    unfold Dat.leavesExact; rw [in0_live t], after0]
  rw [show (dats m 0 c).leavesExact 1 t = owns (c : Thread nD τ) (stg1 t) fullShare ((dats m 0 c).after 1 t) from by
    unfold Dat.leavesExact; rw [in1_live t], after1]
  rw [show (dats m 0 c).leavesExact 2 t = owns (c : Thread nD τ) (stg2 t) fullShare ((dats m 0 c).after 2 t) from by
    unfold Dat.leavesExact; rw [in2_live t], after2]
  have hN : t.val < 30 := lt_of_lt_of_eq t.isLt (show cfg0.N = 30 from N_0)
  unfold Inv
  by_cases h : t.val < 5
  · rw [Dat.leavesExact_idle (dats m 0 c) 3 t (out_idle t h) (out_unflushed t h)]
    iintro ⟨⟨⟨%ds, %hds, HS⟩, Hg⟩, Ho, ⟨%d0, H0⟩, ⟨%d1, H1⟩, ⟨%d2, H2⟩, ⟨%d3, H3⟩⟩
    iapply ((run_cast c (grid0.coords t) _ _ _ _ _ _ _ _ _ _ ((cast_iff t).mpr h) (fun h' => absurd ((agg_iff t).mp h') (by omega)) (iblk m c 0 t) (iblk m c 1 t) (iblk m c 2 t) ((dats m 0 c).before 3 t d3) ds) Set.univ _)
    isplitl [H0]; · iexact H0
    isplitl [H1]; · iexact H1
    isplitl [H2]; · iexact H2
    isplitl [H3]; · iexact H3
    isplitl [HS]; · iexact HS
    iintro ⟨H0, H1, H2, H3, ⟨%d', %hd', HS⟩⟩
    isplitl [HS Hg]
    · isplitl [HS]
      · iexists d'; isplitr
        · ipureintro; exact filled_step m c t h ds d' hds hd'.1 hd'.2
        iexact HS
      iexact Hg
    isplitl [Ho]; · iexact Ho
    isplitl [H0]; · iexact H0
    isplitl [H1]; · iexact H1
    isplitl [H2]; · iexact H2
    iexists d3; iexact H3
  · have h5 : 5 ≤ t.val := by omega
    rw [show (dats m 0 c).leavesExact 3 t = owns (c : Thread nD τ) (stg3 t) fullShare ((dats m 0 c).after 3 t) from by
      unfold Dat.leavesExact; rw [out_live t h5], after3]
    iintro ⟨⟨⟨%ds, %hds, HS⟩, Hg⟩, Ho, ⟨%d0, H0⟩, ⟨%d1, H1⟩, ⟨%d2, H2⟩, ⟨%d3, H3⟩⟩
    obtain rfl := filled_all m c t.val h5 ds hds
    iapply ((run_agg c (grid0.coords t) _ _ _ _ _ _ _ _ _ _ (fun h' => absurd ((cast_iff t).mp h') (by omega)) ((agg_iff t).mpr h5) (iblk m c 0 t) (iblk m c 1 t) (iblk m c 2 t) (xcast m c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists (xcast m c); isplitr
        · ipureintro; exact fun y _ => rfl
        iexact HS
      iexact Hg
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0: nothing is filled yet. -/
theorem inv_in (c : Dev nD) : Pipeline.ΦA spec0 c ⊢ (dats m 0 c).Φ 0 := by
  rw [show (dats m 0 c).Φ 0 = Inv m c 0 from rfl, classInv_eq]; unfold Inv
  iintro ⟨⟨%d, HS⟩, Hg⟩
  isplitl [HS]
  · iexists d; isplitr
    · ipureintro; exact fun y hy => absurd hy (by omega)
    iexact HS
  iexact Hg

/-- After the last point the invariant gives the region's own back: what the scratch holds is forgotten. -/
theorem inv_out (c : Dev nD) : (dats m 0 c).Φ (Fin.last cfg0.N) ⊢ Pipeline.ΦA spec0 c := by
  rw [show (dats m 0 c).Φ (Fin.last cfg0.N) = Inv m c (Fin.last cfg0.N).val from rfl, classInv_eq]; unfold Inv
  iintro ⟨⟨%d, %hd, HS⟩, Hg⟩
  isplitl [HS]
  · iexists d; iexact HS
  iexact Hg

/-! ## The run -/

set_option backward.isDefEq.respectTransparency.types false in
/-- Every weakly fair execution of @main terminates, nothing faulting, every array of the region at what the proof data
    computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelPayload.lean ====
/-
  What the body computes at a point of the second regime, read entry by entry on the extended reals.

  The body multiplies a 400 x 10000 block `a` of adj by the 10000 x 512 scratch `s` into a zero accumulator, then the
  400 x 512 result by the 512 x 512 weights `w` contracted along the weights' SECOND axis (so the weights act transposed),
  again into a zero accumulator; every change of float format in between is the identity on the extended reals. Hence
  at (r, o) the result is  Σ_k (Σ_l a(r, l) · s(l, k)) · w(o, k).
-/
import proofs.«107264_g27943057227955_cont_9to1_1166_19_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

local notation "dA" => dot_S400x10000_S10000x512_S400x512_1_0_0_1_n_n
local notation "dW" => dot_S400x512_S512x512_S400x512_1_1_0_0_n_n

/-! ## The first product: block of adj times scratch, contracting adj's columns with the scratch's rows -/

theorem dA_lhs0 (i : S400x512.Idx) (q : (dA).contr.Idx) : ((dA).lhsIdx i q 0).val = (i 0).val := by
  unfold DotDims.lhsIdx
  rw [dif_neg (show ¬(0 : Fin S400x10000.rank) ∈ (dA).lhsBatch by decide), dif_pos (show (0 : Fin S400x10000.rank) ∈ (dA).lhsNonContracting by decide)]
  rfl
theorem dA_lhs1 (i : S400x512.Idx) (q : (dA).contr.Idx) : ((dA).lhsIdx i q 1).val = (q ⟨0, by decide⟩).val :=
  (dA).lhsIdx_val_of_single rfl i q
theorem dA_rhs0 (i : S400x512.Idx) (q : (dA).contr.Idx) : ((dA).rhsIdx i q 0).val = (q ⟨0, by decide⟩).val :=
  (dA).rhsIdx_val_of_single rfl i q
theorem dA_rhs1 (i : S400x512.Idx) (q : (dA).contr.Idx) : ((dA).rhsIdx i q 1).val = (i 1).val := by
  unfold DotDims.rhsIdx
  rw [dif_neg (show ¬(1 : Fin S10000x512.rank) ∈ (dA).rhsBatch by decide), dif_pos (show (1 : Fin S10000x512.rank) ∈ (dA).rhsNonContracting by decide)]
  rfl

/-- The first product at (r, k): Σ_l a(r, l) · s(l, k). -/
theorem first_apply {φ₁ φ₂ : FTy} (a : FVec Ideal S400x10000 φ₁) (s : FVec Ideal S10000x512 φ₂) (r : Fin 400) (k : Fin 512) :
    FloatOps.matmul dA none a s (constant S400x512 .f32 0x00000000#32) (ix2 r k)
      = ∑ l : Fin 10000, (a (ix2 r l) : EReal) * s (ix2 l k) := by
  rw [Ideal.matmul_constant_zero_apply, ← Equiv.sum_comp (contrEquiv1 dA 10000 rfl rfl).symm]
  refine Finset.sum_congr rfl fun l _ => ?_
  have hl := contrEquiv1_symm_val dA 10000 rfl rfl l
  have el : (dA).lhsIdx (ix2 r k) ((contrEquiv1 dA 10000 rfl rfl).symm l) = ix2 r l := funext fun b => Fin.ext (by
    match b with
    | ⟨0, _⟩ => exact dA_lhs0 _ _
    | ⟨1, _⟩ => exact (dA_lhs1 _ _).trans hl)
  have er : (dA).rhsIdx (ix2 r k) ((contrEquiv1 dA 10000 rfl rfl).symm l) = ix2 l k := funext fun b => Fin.ext (by
    match b with
    | ⟨0, _⟩ => exact (dA_rhs0 _ _).trans hl
    | ⟨1, _⟩ => exact dA_rhs1 _ _)
  rw [el, er]

/-! ## The second product: contracting the left operand's columns with the weights' COLUMNS -/

theorem dW_lhs0 (i : S400x512.Idx) (q : (dW).contr.Idx) : ((dW).lhsIdx i q 0).val = (i 0).val := by
  unfold DotDims.lhsIdx
  rw [dif_neg (show ¬(0 : Fin S400x512.rank) ∈ (dW).lhsBatch by decide), dif_pos (show (0 : Fin S400x512.rank) ∈ (dW).lhsNonContracting by decide)]
  rfl
theorem dW_lhs1 (i : S400x512.Idx) (q : (dW).contr.Idx) : ((dW).lhsIdx i q 1).val = (q ⟨0, by decide⟩).val :=
  (dW).lhsIdx_val_of_single rfl i q
theorem dW_rhs0 (i : S400x512.Idx) (q : (dW).contr.Idx) : ((dW).rhsIdx i q 0).val = (i 1).val := by
  unfold DotDims.rhsIdx
  rw [dif_neg (show ¬(0 : Fin S512x512.rank) ∈ (dW).rhsBatch by decide), dif_pos (show (0 : Fin S512x512.rank) ∈ (dW).rhsNonContracting by decide)]
  rfl
theorem dW_rhs1 (i : S400x512.Idx) (q : (dW).contr.Idx) : ((dW).rhsIdx i q 1).val = (q ⟨0, by decide⟩).val :=
  (dW).rhsIdx_val_of_single rfl i q

/-- The second product at (r, o): Σ_k p(r, k) · w(o, k). -/
theorem second_apply {φ₁ φ₂ : FTy} (p : FVec Ideal S400x512 φ₁) (w : FVec Ideal S512x512 φ₂) (r : Fin 400) (o : Fin 512) :
    FloatOps.matmul dW none p w (constant S400x512 .f32 0x00000000#32) (ix2 r o)
      = ∑ k : Fin 512, (p (ix2 r k) : EReal) * w (ix2 o k) := by
  rw [Ideal.matmul_constant_zero_apply, ← Equiv.sum_comp (contrEquiv1 dW 512 rfl rfl).symm]
  refine Finset.sum_congr rfl fun k _ => ?_
  have hk := contrEquiv1_symm_val dW 512 rfl rfl k
  have el : (dW).lhsIdx (ix2 r o) ((contrEquiv1 dW 512 rfl rfl).symm k) = ix2 r k := funext fun b => Fin.ext (by
    match b with
    | ⟨0, _⟩ => exact dW_lhs0 _ _
    | ⟨1, _⟩ => exact (dW_lhs1 _ _).trans hk)
  have er : (dW).rhsIdx (ix2 r o) ((contrEquiv1 dW 512 rfl rfl).symm k) = ix2 o k := funext fun b => Fin.ext (by
    match b with
    | ⟨0, _⟩ => exact dW_rhs0 _ _
    | ⟨1, _⟩ => exact (dW_rhs1 _ _).trans hk)
  rw [el, er]

/-! ## The payload -/

/-- The body's stored value at (r, o): the double sum, the narrowing steps being the identity on the extended reals. -/
theorem pay_apply (a : Vec Ideal S400x10000 .f32) (s : Vec Ideal S10000x512 .bf16) (w : Vec Ideal S512x512 .f32)
    (r : Fin 400) (o : Fin 512) :
    k0_pay2 (F := Ideal) a s w (ix2 r o)
      = ∑ k : Fin 512, (∑ l : Fin 10000, (a (ix2 r l) : EReal) * s (ix2 l k)) * w (ix2 o k) := by
  unfold k0_pay2
  refine (second_apply _ _ r o).trans ?_
  refine Finset.sum_congr rfl fun k _ => ?_
  refine congrArg (· * (w (ix2 o k) : EReal)) ?_
  exact first_apply (φ₁ := .bf16) (φ₂ := .bf16) (truncf .bf16 a bitsLt_bf16_f32) s r k

end Cert.KernelIdeal.Payload

end
-- ==== Proof.MatAssoc.lean ====
/-
  Reassociating a product of three matrices on the extended reals.

  For a row `a` (indexed by `L`), a matrix `x` (`L × K`) and a row `w` (indexed by `K`) whose entries are all real
  numbers, `∑ k, (∑ l, a l * x l k) * w k = ∑ l, a l * ∑ k, x l k * w k`: both are the double sum of
  `a l * x l k * w k`. On the extended reals this needs the entries to be finite, since distributing a product over a
  sum fails at infinities; for real entries every partial sum is a real number and the identity is the one in `ℝ`.
-/
import Idealize.ShloMosaic.PureOps.Ideal.Laws

open scoped BigOperators

namespace Cert.MatAssoc

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- `(a · x) · w = a · (x · w)` for a row `a`, a matrix `x` and a column `w` of real numbers, in `ℝ`. -/
theorem assoc_real {L K : Type} [Fintype L] [Fintype K] (a : L → ℝ) (x : L → K → ℝ) (w : K → ℝ) :
    ∑ k, (∑ l, a l * x l k) * w k = ∑ l, a l * ∑ k, x l k * w k := by
  simp only [Finset.sum_mul, Finset.mul_sum]
  rw [Finset.sum_comm]
  exact Finset.sum_congr rfl fun l _ => Finset.sum_congr rfl fun k _ => by ring

/-- The same on the extended reals, for entries that are real numbers. -/
theorem assoc {L K : Type} [Fintype L] [Fintype K] (a : L → EReal) (x : L → K → EReal) (w : K → EReal)
    (ha : ∀ l, ∃ r : ℝ, a l = (r : EReal)) (hx : ∀ l k, ∃ r : ℝ, x l k = (r : EReal))
    (hw : ∀ k, ∃ r : ℝ, w k = (r : EReal)) :
    ∑ k, (∑ l, a l * x l k) * w k = ∑ l, a l * ∑ k, x l k * w k := by
  choose a' ha using ha
  choose x' hx using hx
  choose w' hw using hw
  simp only [ha, hx, hw, ← EReal.coe_mul, ← coe_sum]
  exact congrArg _ (assoc_real a' x' w')

end Cert.MatAssoc
-- ==== Proof.Spec.lean ====
/-
  One graph-convolution layer, out = adj · (x · Wᵀ), as a function of its three arrays, entry by entry on the extended reals,
  in two arrangements:

    layerRef   x adj W (i, o) = Σ_l adj(i, l) · (Σ_k x(l, k) · W(o, k))      first project the features, then aggregate
    layerFused x adj W (i, o) = Σ_k (Σ_l adj(i, l) · x(l, k)) · W(o, k)      first aggregate, then project

  with x of shape 10000 x 512, adj 10000 x 10000 and W 512 x 512 (W is used transposed: its row index is the output
  feature). The two are the same double sum of adj(i, l) · x(l, k) · W(o, k) whenever every entry is a real number
  (`fused_eq_ref`); at infinite entries the regrouping is not valid, which is why the hypotheses are there.
-/
import proofs.«107264_g27943057227955_cont_9to1_1166_19_alg».proof.Proof.MatAssoc
import Idealize.ShloMosaic.Lib.ValueIdx

noncomputable section

namespace Cert.GcnSpec

open Idealize.ShloMosaic Idealize.ShloMosaic.ValueIdx

/-- The shapes of x (and of the result), adj and W. -/
abbrev SX : Shape := ⟨2, ![10000, 512]⟩
abbrev SA : Shape := ⟨2, ![10000, 10000]⟩
abbrev SW : Shape := ⟨2, ![512, 512]⟩

/-- adj · (x · Wᵀ) at entry (i, o). -/
def layerRef (x : SX.Idx → EReal) (adj : SA.Idx → EReal) (w : SW.Idx → EReal) : SX.Idx → EReal :=
  fun j => ∑ l : Fin 10000, adj (ix2 (j 0) l) * ∑ k : Fin 512, x (ix2 l k) * w (ix2 (j 1) k)

/-- (adj · x) · Wᵀ at entry (i, o). -/
def layerFused (x : SX.Idx → EReal) (adj : SA.Idx → EReal) (w : SW.Idx → EReal) : SX.Idx → EReal :=
  fun j => ∑ k : Fin 512, (∑ l : Fin 10000, adj (ix2 (j 0) l) * x (ix2 l k)) * w (ix2 (j 1) k)

/-- For real entries the two arrangements agree. -/
theorem fused_eq_ref (x : SX.Idx → EReal) (adj : SA.Idx → EReal) (w : SW.Idx → EReal)
    (hx : ∀ i, ∃ r : ℝ, x i = (r : EReal)) (ha : ∀ i, ∃ r : ℝ, adj i = (r : EReal)) (hw : ∀ i, ∃ r : ℝ, w i = (r : EReal)) :
    layerFused x adj w = layerRef x adj w :=
  funext fun j => MatAssoc.assoc (fun l : Fin 10000 => adj (ix2 (j 0) l)) (fun (l : Fin 10000) (k : Fin 512) => x (ix2 l k))
    (fun k : Fin 512 => w (ix2 (j 1) k)) (fun l => ha _) (fun l k => hx _) (fun k => hw _)

end Cert.GcnSpec

end
-- ==== Proof.KernelValue.lean ====
/-
  What the kernel's output array holds after the run, on the extended reals.

  Only the points 5..29 write the output back, point t writing rows [400 (t - 5), 400 (t - 5) + 400). There the body
  is handed the same rows of adj (all 10000 columns), the whole weights, and a scratch equal to x, so what it stores at
  (r, o) is  Σ_k (Σ_l adj(400 (t - 5) + r, l) · x(l, k)) · W(o, k): the block of `layerFused x adj W` at those rows. The 25
  blocks of 400 rows cover all 10000 rows, so the array ends at `layerFused` of the three argument arrays.
-/
import proofs.«107264_g27943057227955_cont_9to1_1166_19_alg».proof.Proof.BodyData
import proofs.«107264_g27943057227955_cont_9to1_1166_19_alg».proof.Proof.KernelPayload
import proofs.«107264_g27943057227955_cont_9to1_1166_19_alg».proof.Proof.Spec

set_option maxRecDepth 16384

noncomputable section

namespace Cert.KernelIdeal.Out

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

/-! ## The schedule of the output and of the blocks the body reads, decided over the grid -/

/-- The output is written back exactly at the points from 5 on. -/
theorem flush_from5 : ∀ t : Fin cfg0.N, (cfg0.win 3).flush t = true → 5 ≤ t.val :=
  (by decide +kernel : ∀ t : Fin grid0.N, win0_3.flush t = true → 5 ≤ t.val)
theorem flush_of5 : ∀ t : Fin cfg0.N, 5 ≤ t.val → (cfg0.win 3).flush t = true :=
  (by decide +kernel : ∀ t : Fin grid0.N, 5 ≤ t.val → win0_3.flush t = true)
/-- From point 5 on the adj block and the output block are both block t - 5 along the rows; the weights' block is the
    whole array at every point. -/
theorem blocks_at : ∀ t : Fin cfg0.N, 5 ≤ t.val →
    win0_2.index t (0 : Fin 2) = t.val - 5 ∧ win0_2.index t (1 : Fin 2) = 0
    ∧ win0_3.index t (0 : Fin 2) = t.val - 5 ∧ win0_3.index t (1 : Fin 2) = 0 :=
  (by decide +kernel : ∀ t : Fin grid0.N, 5 ≤ t.val →
    win0_2.index t (0 : Fin 2) = t.val - 5 ∧ win0_2.index t (1 : Fin 2) = 0
    ∧ win0_3.index t (0 : Fin 2) = t.val - 5 ∧ win0_3.index t (1 : Fin 2) = 0)
theorem weights_at : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-! ## The three operands of the body at a point, read at an entry -/

/-- The adj block at a point from 5 on, at (r, l), is adj at (400 (t - 5) + r, l). -/
theorem adj_at (c : Dev nD) (t : Fin cfg0.N) (h5 : 5 ≤ t.val) (r : Fin 400) (l : Fin 10000) (i0 : Fin 10000)
    (hi : i0.val = (t.val - 5) * 400 + r.val) :
    (iblk m c 2 t (ix2 r l) : EReal) = V m c main_arg1 (ix2 i0 l) := by
  show V m c main_arg1 (((cfg0.win 2).blk t).view.emb (ix2 r l)) = V m c main_arg1 (ix2 i0 l)
  refine congrArg (V m c main_arg1) ?_
  obtain ⟨e0, e1, -, -⟩ := blocks_at t h5
  funext a; apply Fin.ext
  match a with
  | ⟨0, _⟩ => show win0_2.index t (0 : Fin 2) * 400 + 1 * r.val = i0.val; omega
  | ⟨1, _⟩ => show win0_2.index t (1 : Fin 2) * 10000 + 1 * l.val = l.val; omega

/-- The weights' block is the weights. -/
theorem w_at (c : Dev nD) (t : Fin cfg0.N) (o k : Fin 512) :
    (iblk m c 1 t (ix2 o k) : EReal) = V m c main_arg2 (ix2 o k) := by
  show V m c main_arg2 (((cfg0.win 1).blk t).view.emb (ix2 o k)) = V m c main_arg2 (ix2 o k)
  refine congrArg (V m c main_arg2) ?_
  obtain ⟨e0, e1⟩ := weights_at t
  funext a; apply Fin.ext
  match a with
  | ⟨0, _⟩ => show win0_1.index t (0 : Fin 2) * 512 + 1 * o.val = o.val; omega
  | ⟨1, _⟩ => show win0_1.index t (1 : Fin 2) * 512 + 1 * k.val = k.val; omega

/-- On the extended reals narrowing is the identity: the narrowed x is x. -/
theorem xcast_at (c : Dev nD) (l : Fin 10000) (k : Fin 512) :
    (xcast m c (ix2 l k) : EReal) = V m c main_arg0 (ix2 l k) := rfl

/-! ## The output array -/

/-- The layer's result computed the kernel's way, of the arrays as the region finds them. -/
abbrev outG (c : Dev nD) : S10000x512.Idx → EReal :=
  Cert.GcnSpec.layerFused (V m c main_arg0) (V m c main_arg1) (V m c main_arg2)

/-- What a point from 5 on writes back is its block of `outG`. -/
theorem flushed_eq (c : Dev nD) (t : Fin cfg0.N) (h5 : 5 ≤ t.val) :
    (dats m 0 c).flushed 3 t = ((cfg0.win 3).blk t).view.read (Elt Ideal) (outG m c) := by
  show (cfg0.win 3).cut (grid0.coords t) ((dats m 0 c).after 3 t) = _
  rw [after3]
  funext y
  obtain ⟨r, o, rfl⟩ : ∃ (r : Fin 400) (o : Fin 512), y = ix2 r o := ⟨y 0, y 1, eq_ix2 y⟩
  have hN : t.val < 30 := lt_of_lt_of_eq t.isLt (show cfg0.N = 30 from N_0)
  obtain ⟨-, -, e2, e3⟩ := blocks_at t h5
  have hrow : (t.val - 5) * 400 + r.val < 10000 := by have := r.isLt; omega
  have hemb : ((cfg0.win 3).blk t).view.emb (ix2 r o) = (ix2 (⟨(t.val - 5) * 400 + r.val, hrow⟩ : Fin 10000) o : S10000x512.Idx) := by
    funext a; apply Fin.ext
    match a with
    | ⟨0, _⟩ => show win0_3.index t (0 : Fin 2) * 400 + 1 * r.val = (t.val - 5) * 400 + r.val; omega
    | ⟨1, _⟩ => show win0_3.index t (1 : Fin 2) * 512 + 1 * o.val = o.val; omega
  show k0_pay2 (F := Ideal) (iblk m c 2 t) (xcast m c) (iblk m c 1 t) (ix2 r o) = outG m c (((cfg0.win 3).blk t).view.emb (ix2 r o))
  rw [hemb]
  refine (Cert.KernelIdeal.Payload.pay_apply _ _ _ r o).trans ?_
  show _ = Cert.GcnSpec.layerFused (V m c main_arg0) (V m c main_arg1) (V m c main_arg2)
    (ix2 (⟨(t.val - 5) * 400 + r.val, hrow⟩ : Fin 10000) o)
  unfold Cert.GcnSpec.layerFused
  refine Finset.sum_congr rfl fun k _ => ?_
  rw [w_at m c t o k]
  congr 1
  refine Finset.sum_congr rfl fun l _ => ?_
  rw [adj_at m c t h5 r l ⟨(t.val - 5) * 400 + r.val, hrow⟩ rfl, xcast_at m c l k]
  try rfl

/-- An index of the output array is in point t's block iff each coordinate is in the block's range on its axis. -/
theorem mem_blk (t : Fin cfg0.N) (i : S10000x512.Idx) :
    i ∈ ((cfg0.win 3).blk t).view.set ↔ ∀ a : Fin 2, win0_3.index t a * S400x512.size a ≤ (i a).val ∧ (i a).val < win0_3.index t a * S400x512.size a + S400x512.size a := by
  show i ∈ ((View.whole main_v0).slice (win0_3.rect t)).set ↔ _
  rw [View.set_slice_whole, Rect.mem_set_unit]
  exact Iff.rfl

/-- Every row lies in the block written back at point row / 400 + 5. -/
theorem cover (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 30 := N_0
  have ht : (i 0).val / 400 + 5 < cfg0.N := by rw [hN]; omega
  have h5 : 5 ≤ (⟨(i 0).val / 400 + 5, ht⟩ : Fin cfg0.N).val := Nat.le_add_left _ _
  refine ⟨⟨(i 0).val / 400 + 5, ht⟩, flush_of5 _ h5, ?_⟩
  obtain ⟨-, -, e2, e3⟩ := blocks_at ⟨(i 0).val / 400 + 5, ht⟩ h5
  have e2' : win0_3.index ⟨(i 0).val / 400 + 5, ht⟩ (0 : Fin 2) = (i 0).val / 400 := by
    rw [e2]; show (i 0).val / 400 + 5 - 5 = (i 0).val / 400; omega
  rw [mem_blk]
  intro a
  match a with
  | ⟨0, _⟩ =>
    show win0_3.index ⟨(i 0).val / 400 + 5, ht⟩ (0 : Fin 2) * 400 ≤ (i 0).val ∧ (i 0).val < win0_3.index ⟨(i 0).val / 400 + 5, ht⟩ (0 : Fin 2) * 400 + 400
    rw [e2']; omega
  | ⟨1, _⟩ =>
    show win0_3.index ⟨(i 0).val / 400 + 5, ht⟩ (1 : Fin 2) * 512 ≤ (i 1).val ∧ (i 1).val < win0_3.index ⟨(i 0).val / 400 + 5, ht⟩ (1 : Fin 2) * 512 + 512
    rw [e3]; omega

/-- The output array after the run. -/
theorem final (c : Dev nD) : (dats m 0 c).arrAt 3 cfg0.N = outG m c :=
  (dats m 0 c).arrAt_eq_of_cover 3 _ (fun t hf => flushed_eq m c t (flush_from5 t hf)) cover

/-- The kernel's run on the extended reals: the output ends at the layer's result computed the kernel's way, the three
    argument arrays as they began. -/
theorem run : θ_run defs (onTc (τ := τ) (main (F := Ideal))) ⟨m, fun _ => 0, ρ⟩ fun r => ∀ c : Dev nD,
      r.2.mem ((c.tc : Thread nD τ).loc main_v0) = Cert.GcnSpec.layerFused (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.Out

end
-- ==== Proof.RefValue.lean ====
/-
  The reference program computes `layerRef`: its three host operations — the transpose of W, x times that transpose,
  adj times the result — read entry by entry are  Σ_l adj(i, l) · (Σ_k x(l, k) · W(o, k)).
-/
import proofs.«107264_g27943057227955_cont_9to1_1166_19_alg».proof.Proof.Gen.ReferenceIdeal.Read
import proofs.«107264_g27943057227955_cont_9to1_1166_19_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as a function of its three arguments, is `layerRef` of them. -/
theorem ref_is_layer (x0 : (⟨S10000x512, .f32⟩ : BufTy).Contents (Elt Ideal)) (x1 : (⟨S10000x10000, .f32⟩ : BufTy).Contents (Elt Ideal))
    (x2 : (⟨S512x512, .f32⟩ : BufTy).Contents (Elt Ideal)) :
    val_main_v2 (F := Ideal) x0 x1 x2 = Cert.GcnSpec.layerRef x0 x1 x2 := by
  funext j
  rw [val_main_v2_apply]
  unfold Cert.GcnSpec.layerRef
  refine Finset.sum_congr rfl fun l _ => ?_
  have e1 : lidx_main_v2 j l = ix2 (j 0) l := funext fun a => Fin.ext (by
    match a with
    | ⟨0, _⟩ => rfl
    | ⟨1, _⟩ => rfl)
  rw [val_main_v1_apply, e1]
  refine congrArg (x1 (ix2 (j 0) l) * ·) (Finset.sum_congr rfl fun k _ => ?_)
  have e2 : lidx_main_v1 (ridx_main_v2 j l) k = ix2 l k := funext fun a => Fin.ext (by
    match a with
    | ⟨0, _⟩ => rfl
    | ⟨1, _⟩ => rfl)
  have e3 : idx_main_v0 (ridx_main_v1 (ridx_main_v2 j l) k) = ix2 (j 1) k := funext fun a => Fin.ext (by
    match a with
    | ⟨0, _⟩ => rfl
    | ⟨1, _⟩ => rfl)
  rw [val_main_v0_apply, e2, e3]
  rfl

end Cert.ReferenceIdeal.RefValue

end
-- ==== Proof.Finite.lean ====
/-
  Under the precondition every entry of the three argument arrays is a real number.

  The precondition is the conjunction, over the three arrays, of "every entry's absolute value is below +∞". On the
  extended reals |v| = max v (-v), and max v (-v) < ⊤ rules out both v = ⊤ and v = ⊥ (whose negation is ⊤); what is left
  is a real number.
-/
import proofs.«107264_g27943057227955_cont_9to1_1166_19_alg».proof.Proof.Gen.Pre_finite_inputs
import Idealize.ShloMosaic.PureOps.Ideal.Laws
import Idealize.ShloMosaic.Lib.ReduceAll
import Idealize.ShloMosaic.Lib.ValueIdx
import Idealize.ShloMosaic.Lib.Affine

noncomputable section

namespace Cert.Pre_finite_inputs.Finite

open Cert.Pre_finite_inputs Idealize.ShloMosaic

/-- An extended real whose absolute value is below +∞ is a real number. -/
theorem real_of_abs_lt_top (v : EReal) (h : max v (-v) < ⊤) : ∃ r : ℝ, v = (r : EReal) := by
  have h1 : v ≠ ⊤ := by rintro rfl; simp at h
  have h2 : v ≠ ⊥ := by rintro rfl; simp at h
  exact ⟨v.toReal, (EReal.coe_toReal h1 h2).symm⟩

/-- The ordered less-than, as a one-bit word, is 1 only when the inequality holds. -/
theorem lt_of_cmp_olt (v w : EReal) (h : Ideal.cmp .olt v w = 1#1) : v < w := by
  unfold Ideal.cmp at h
  by_contra hn
  simp [hn] at h

/-- The f32 pattern 0x7F800000 denotes +∞. -/
theorem inf_pattern : Ideal.ofBits .f32 0x7F800000#32 = (⊤ : EReal) := by
  simp [Ideal.ofBits, Ideal.ieee]

instance : Subsingleton S_.Idx := ⟨fun a b => funext fun d => d.elim0⟩

variable [Facts]
open Facts

/-- One conjunct: "all entries of `a` have absolute value below the infinity pattern" gives a real number at each entry. -/
theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : ∃ r : ℝ, (a i : EReal) = (r : EReal) := by
  have ei := Host.reduce_andi_all _ _ hr hu j e i
  have ei' : Ideal.cmp .olt (max (a i : EReal) (-(a i))) (Ideal.ofBits .f32 0x7F800000#32) = 1#1 := ei
  rw [inf_pattern] at ei'
  exact real_of_abs_lt_top _ (lt_of_cmp_olt _ _ ei')

/-- The precondition, decoded: every entry of x, of adj and of W is a real number. -/
theorem entries_real (a0 : FVec Ideal S10000x512 .f32) (a1 : FVec Ideal S10000x10000 .f32) (a2 : FVec Ideal S512x512 .f32)
    (h : fn (F := Ideal) a0 a1 a2 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) := by
  have h0 := congrFun h ValueIdx.ix0
  dsimp only [fn] at h0
  obtain ⟨h01, h2⟩ := IntOp.andi_eq_one.mp h0
  obtain ⟨h0', h1⟩ := IntOp.andi_eq_one.mp h01
  exact ⟨fun i => real_of_all a0 _ _ _ ValueIdx.ix0 h0' i, fun i => real_of_all a1 _ _ _ ValueIdx.ix0 h1 i,
    fun i => real_of_all a2 _ _ _ ValueIdx.ix0 h2 i⟩

end Cert.Pre_finite_inputs.Finite

end
-- ==== Proof.lean ====
/-
  One dense graph-convolution layer, out = adj · (x · Wᵀ), with x : 10000 x 512, adj : 10000 x 10000, W : 512 x 512.

  The reference computes it as written: it transposes W, multiplies x by the transpose, then adj by the result. The
  kernel reassociates, out = (adj · x) · Wᵀ, in one grid of 30 points: points 0..4 copy x, narrowed to a shorter float
  format, into a scratch buffer 2000 rows at a time; points 5..29 each take 400 rows of adj, multiply them by the scratch
  and the product by W contracted along W's second axis, and write 400 rows of the output. On the extended reals a
  change of float format is the identity and a matrix product into a zero accumulator is a plain finite sum, so the
  kernel's entry (i, o) is Σ_k (Σ_l adj(i, l) · x(l, k)) · W(o, k) and the reference's is
  Σ_l adj(i, l) · (Σ_k x(l, k) · W(o, k)). These agree because every entry is a real number under the precondition
  (all three inputs finite): both are then the double sum of adj(i, l) · x(l, k) · W(o, k) in ℝ. The regrouping does need
  finiteness — distributing a product over a sum fails at infinities — and that is the one place the precondition is used.

  The frames: the kernel's run is the grid loop with the invariant "the scratch is filled with narrowed x up to row
  2000 · min(t, 5)", stated for any float instance and used for both the word-level program and the idealized one; the
  reference's frame is its run with the result dropped. The idealization rewrote nothing, so `preserves` is trivial.
-/
import proofs.«107264_g27943057227955_cont_9to1_1166_19_alg».proof.Defs
import proofs.«107264_g27943057227955_cont_9to1_1166_19_alg».proof.Proof.Gen.Kernel
import proofs.«107264_g27943057227955_cont_9to1_1166_19_alg».proof.Proof.Gen.KernelIdeal
import proofs.«107264_g27943057227955_cont_9to1_1166_19_alg».proof.Proof.Gen.ReferenceIdeal
import proofs.«107264_g27943057227955_cont_9to1_1166_19_alg».proof.Proof.Gen.Pre_finite_inputs
import proofs.«107264_g27943057227955_cont_9to1_1166_19_alg».proof.Proof.BodyDataW
import proofs.«107264_g27943057227955_cont_9to1_1166_19_alg».proof.Proof.KernelValue
import proofs.«107264_g27943057227955_cont_9to1_1166_19_alg».proof.Proof.RefValue
import proofs.«107264_g27943057227955_cont_9to1_1166_19_alg».proof.Proof.Finite
import Idealize.ShloMosaic.Adequacy
import Idealize.ShloMosaic.Init

noncomputable section

namespace Cert.Proof

open Idealize.ShloMosaic Idealize.SL.Sem

/-- The word-level kernel runs and leaves its three arguments as they were. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel ends at (adj · x) · Wᵀ and the reference at adj · (x · Wᵀ) of arguments that agree; for
    finite inputs these are one array. -/
theorem algebraic : Cert.algebraic_KernelIdeal_ReferenceIdeal := by
  intro m ρ m' ρ' hpre hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v2_eq,
    Cert.ReferenceIdeal.RefValue.ref_is_layer]
  obtain ⟨h0, h1, h2⟩ := Cert.Pre_finite_inputs.Finite.entries_real _ _ _ (hpre c)
  exact (Cert.GcnSpec.fused_eq_ref _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
